-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : IVec S33554432 32) (main_arg1 : IVec S33554432 32) (main_arg2 : FVec F S33554432 .f32) : IVec S_ 1 :=
  let main_v0 : FVec F S33554432 .f32 := Host.absf main_arg2
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S1x1 : Shape := ⟨2, ![1, 1]⟩
abbrev S8192x128 : Shape := ⟨2, ![8192, 128]⟩
abbrev S1x8192x128 : Shape := ⟨3, ![1, 8192, 128]⟩
abbrev S1 : Shape := ⟨1, ![1]⟩
abbrev S1x1x1 : Shape := ⟨3, ![1, 1, 1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S33554432, .i32⟩
  | .hbm, ⟨1, _⟩ => ⟨S33554432, .i32⟩
  | .hbm, ⟨2, _⟩ => ⟨S33554432, .f32⟩
  | .hbm, ⟨3, _⟩ => ⟨S262144x128, .i32⟩
  | .hbm, ⟨4, _⟩ => ⟨S262144x128, .i32⟩
  | .hbm, ⟨5, _⟩ => ⟨S262144x128, .f32⟩
  | .hbm, ⟨6, _⟩ => ⟨S1x1, .f32⟩
  | .hbm, ⟨7, _⟩ => ⟨S_, .f32⟩
  | .local _ .vmem, ⟨0, _⟩ => ⟨S8192x128, .i32⟩
  | .local _ .vmem, ⟨1, _⟩ => ⟨S8192x128, .i32⟩
  | .local _ .vmem, ⟨2, _⟩ => ⟨S8192x128, .i32⟩
  | .local _ .vmem, ⟨3, _⟩ => ⟨S8192x128, .i32⟩
  | .local _ .vmem, ⟨4, _⟩ => ⟨S8192x128, .f32⟩
  | .local _ .vmem, ⟨5, _⟩ => ⟨S8192x128, .f32⟩
  | .local _ .vmem, ⟨6, _⟩ => ⟨S1x1, .f32⟩
  | _, _ => ⟨S33554432, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S33554432_S262144x128 : S33554432.ShapeCasts S262144x128
  inb_S1x1_S1x1_0_0 : ∀ a, (![0, 0] : Fin 2 → Nat) a + S1x1.size a ≤ S1x1.size a
  h_S1x1 : 0 < S1x1.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S1x8192x128 : S8192x128.ShapeCasts S1x8192x128
  reduces_S1x8192x128_S1 : S1x8192x128.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .i32 = 32 ∨ (Rect.block (s := S262144x128) S8192x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .i32 = 32 ∨ (Rect.block (s := S262144x128) S8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S262144x128.size a
  hwx0_2 : ∀ i : grid0.Coords, EltTy.bits .f32 = 32 ∨ (Rect.block (s := S262144x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S33554432, .i32⟩
  | .hbm, ⟨1, _⟩ => ⟨S33554432, .i32⟩
  | .hbm, ⟨2, _⟩ => ⟨S33554432, .f32⟩
  | .hbm, ⟨3, _⟩ => ⟨S33554432, .i1⟩
  | .hbm, ⟨4, _⟩ => ⟨S_, .f32⟩
  | .hbm, ⟨5, _⟩ => ⟨S_, .f32⟩
  | .hbm, ⟨6, _⟩ => ⟨S33554432, .f32⟩
  | .hbm, ⟨7, _⟩ => ⟨S33554432, .f32⟩
  | .hbm, ⟨8, _⟩ => ⟨S33554432, .f32⟩
  | .hbm, ⟨9, _⟩ => ⟨S33554432, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | _, _ => ⟨S33554432, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.SumLaws.lean ====
/-
  Sums re-indexed. The loss is the mean of `w k * x k` over 33554432 entries, `w k = 1` where the two labels
  agree and `-1` where they differ. One program sums all entries at once; the other views the entries as a
  [262144, 128] array, cuts its rows into 32 blocks of 8192 rows, sums each block and adds the block totals
  one after the other. Over a commutative monoid — the extended reals under addition are one, infinities
  included — the two totals agree: a sum does not depend on the order or the grouping of its summands, and a
  reshape only renames the indices. Nothing here needs the entries to be finite.
-/
import Idealize.ShloMosaic.PureOps.Ideal
import Idealize.ShloMosaic.Lib.ValueIdx

noncomputable section

open scoped BigOperators

namespace Cert.DiscLoss

open Idealize.ShloMosaic Idealize.ShloMosaic.ValueIdx

/-! ## The summand -/

/-- One summand of the loss at index `k`: the entry `a2 k` times `1` where the labels `a0 k`, `a1 k` agree and
    times `-1` where they differ (the two factors kept as the binary words both programs spell). -/
def term {ι : Type} (a0 a1 : ι → BitVec 32) (a2 : ι → Ideal .f32) (k : ι) : Ideal .f32 :=
  FloatOps.mulf (Scalar.select (IntOp.cmpi .eq (a0 k) (a1 k)) (FloatOps.ofBits .f32 0x3F800000#32) (FloatOps.ofBits .f32 0xBF800000#32)) (a2 k)

/-- Summands whose three ingredients agree entry by entry are equal. -/
theorem term_congr {ι κ : Type} {a0 a1 : ι → BitVec 32} {a2 : ι → Ideal .f32} {b0 b1 : κ → BitVec 32} {b2 : κ → Ideal .f32}
    {k : ι} {l : κ} (h0 : a0 k = b0 l) (h1 : a1 k = b1 l) (h2 : a2 k = b2 l) : term a0 a1 a2 k = term b0 b1 b2 l := by
  unfold term; rw [h0, h1, h2]

/-! ## 262144 rows are 32 blocks of 8192 rows -/

/-- Row `r` of row block `t` is row `t * 8192 + r` of the array. -/
def blockRow (t : Fin 32) (r : Fin 8192) : Fin 262144 :=
  ⟨t.val * 8192 + r.val, by have := t.isLt; have := r.isLt; omega⟩

/-- Every row is row `R % 8192` of block `R / 8192`, and of no other. -/
def rowsEquiv : Fin 32 × Fin 8192 ≃ Fin 262144 where
  toFun p := blockRow p.1 p.2
  invFun R := (⟨R.val / 8192, by have := R.isLt; omega⟩, ⟨R.val % 8192, by omega⟩)
  left_inv p := by
    obtain ⟨t, r⟩ := p
    have := t.isLt; have := r.isLt
    apply Prod.ext <;> apply Fin.ext <;> simp only [blockRow] <;> omega
  right_inv R := by
    apply Fin.ext; simp only [blockRow]; omega

/-- Index `y` of block `t`, as an index of the whole [262144, 128] array: the block's row moved down by
    `t * 8192`, the lane unchanged. -/
abbrev blockIdx (t : Fin 32) (y : (⟨2, ![8192, 128]⟩ : Shape).Idx) : (⟨2, ![262144, 128]⟩ : Shape).Idx :=
  ix2 (blockRow t (y 0)) (y 1)

/-- The total over the [262144, 128] array is the sum over the 32 row blocks of each block's total. -/
theorem sum_blocks {M : Type} [AddCommMonoid M] (f : (⟨2, ![262144, 128]⟩ : Shape).Idx → M) :
    ∑ z, f z = ∑ t : Fin 32, ∑ y : (⟨2, ![8192, 128]⟩ : Shape).Idx, f (blockIdx t y) := by
  rw [sum_idx2, ← Equiv.sum_comp rowsEquiv, Fintype.sum_prod_type]
  refine Finset.sum_congr rfl fun t _ => ?_
  rw [sum_idx2]
  rfl

/-! ## A reshape renames the indices of a sum -/

/-- The same elements under another shape have the same total. -/
theorem sum_shapeCast {M : Type} [AddCommMonoid M] {s t : Shape} (x : s.Idx → M) (h : s.ShapeCasts t) :
    ∑ j : t.Idx, shapeCast t x h j = ∑ k : s.Idx, x k :=
  Equiv.sum_comp (Shape.reshapeEquiv h) x

/-! ## Block totals added one after the other -/

/-- Summands given for the first `n` naturals only, summed over the range `0 … n - 1`, are summed over `Fin n`. -/
theorem sum_range_dite {M : Type} [AddCommMonoid M] (n : ℕ) (g : Fin n → M) :
    ∑ s ∈ Finset.range n, (if h : s < n then g ⟨s, h⟩ else 0) = ∑ t : Fin n, g t := by
  rw [Finset.sum_range]
  exact Finset.sum_congr rfl fun t _ => by rw [dif_pos t.isLt]

end Cert.DiscLoss

end
-- ==== Proof.Loss.lean ====
import proofs.«171369_j55611236548992_1_alg».proof.Proof.SumLaws

noncomputable section

open scoped BigOperators

namespace Cert.DiscLoss

open Idealize.ShloMosaic

/-- The loss of the two label arrays `a0`, `a1` and the entries `a2`: the total of the summands over all 33554432
    indices, divided by the entry count `2 ^ 25` (the divisor kept as the binary word both programs spell). -/
def loss (a0 a1 : (⟨1, ![33554432]⟩ : Shape).Idx → BitVec 32) (a2 : (⟨1, ![33554432]⟩ : Shape).Idx → Ideal .f32) : Ideal .f32 :=
  FloatOps.divf (F := Ideal) (∑ k, term a0 a1 a2 k) (FloatOps.ofBits (F := Ideal) .f32 0x4C000000#32)

/-- The total of row block `t` of three [262144, 128] arrays. -/
def arrBlockSum (A0 A1 : (⟨2, ![262144, 128]⟩ : Shape).Idx → BitVec 32) (A2 : (⟨2, ![262144, 128]⟩ : Shape).Idx → Ideal .f32)
    (t : Fin 32) : Ideal .f32 :=
  ∑ y : (⟨2, ![8192, 128]⟩ : Shape).Idx, term A0 A1 A2 (blockIdx t y)

/-- The 32 block totals add up to the total over the whole array. -/
theorem sum_arrBlockSum (A0 A1 : (⟨2, ![262144, 128]⟩ : Shape).Idx → BitVec 32) (A2 : (⟨2, ![262144, 128]⟩ : Shape).Idx → Ideal .f32) :
    ∑ t : Fin 32, arrBlockSum A0 A1 A2 t = ∑ z, term A0 A1 A2 z :=
  (sum_blocks (term A0 A1 A2)).symm

/-- A sum over `Fin n` of a function of the index carried to `Fin n'`, `n = n'`, is the sum over `Fin n'`. -/
theorem sum_fin_cast {M : Type} [AddCommMonoid M] {n n' : ℕ} (h : n = n') (g : Fin n' → M) :
    ∑ t : Fin n, g (Fin.cast h t) = ∑ t', g t' := by
  subst h; rfl

end Cert.DiscLoss

end
-- ==== Proof.RefSide.lean ====
/-
  The reference over the extended reals, read one operation at a time: the product of the selected `1` / `-1` with the
  entry is the summand at each index, the reduction is zero plus the total of the summands over all indices, and the
  division by the entry count gives the same closed form `loss` the kernel's result has.
-/
import proofs.«171369_j55611236548992_1_alg».proof.Defs
import proofs.«171369_j55611236548992_1_alg».proof.Proof.Gen.ReferenceIdeal.Read
import proofs.«171369_j55611236548992_1_alg».proof.Proof.Loss

noncomputable section

open scoped BigOperators
open Idealize.ShloMosaic Idealize.ShloMosaic.TcCoe Idealize.SL.Sem

namespace Cert.ReferenceIdeal.RefValue

open Cert.ReferenceIdeal Cert.ReferenceIdeal.Read Cert.DiscLoss

/-- The reference's product array holds the summand at every index. -/
theorem v2_apply (x0 x1 : (⟨S33554432, .i32⟩ : BufTy).Contents (Elt Ideal)) (x2 : (⟨S33554432, .f32⟩ : BufTy).Contents (Elt Ideal))
    (j : S33554432.Idx) : val_main_v2 (F := Ideal) x0 x1 x2 j = term x0 x1 x2 j := by
  rw [val_main_v2_apply, val_main_v1_apply, val_main_v0_apply, val_main_call0_v0_apply, val_main_call0_v1_apply,
    val_main_cst_apply, val_main_cst_0_apply]
  unfold term
  rfl

/-- The reference's scalar result is `loss` of its three arguments: zero plus the total is the total, and the host's
    division is the division of extended reals. -/
theorem v4_eq_loss (x0 x1 : (⟨S33554432, .i32⟩ : BufTy).Contents (Elt Ideal)) (x2 : (⟨S33554432, .f32⟩ : BufTy).Contents (Elt Ideal)) :
    val_main_v4 (F := Ideal) x0 x1 x2 = fun _ => loss x0 x1 x2 := by
  funext i
  rw [val_main_v4_apply, val_main_v3_apply, val_main_cst_1_apply, val_main_cst_2_apply,
    Finset.sum_congr rfl fun j _ => v2_apply x0 x1 x2 j]
  simp only [loss, Ideal.ofBits_def, Ideal.ofBits_zero_f32, zero_add, Ideal.hostDivf_def, Ideal.divf_def]

end Cert.ReferenceIdeal.RefValue

end
-- ==== Proof.Pieces.lean ====
/-
  What one grid point leaves in the one-entry accumulator, read off its stores. The body's control has three cases:
  the first point (it clears the accumulator, then adds), a middle point (it only adds), the last point (it adds,
  then divides). Every store covers the whole [1, 1] buffer, so what the buffer holds afterwards is the payload of the
  last store, and a load that follows a store reads that store's payload:
    first   the accumulation's payload over the cleared buffer,
    middle  the accumulation's payload over what the buffer held,
    last    the quotient's payload over that.
  Stated for every reading of the floats.
-/
import proofs.«171369_j55611236548992_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of an access to a whole rank-2 buffer. -/
theorem hz : (![0, 0] : Fin 2 → Nat) = fun _ => 0 := funext fun a => by fin_cases a <;> rfl

/-- A middle point: one store, of the accumulation over the buffer's contents `xo` and the three input blocks. -/
theorem out_B (c : Dev nD) (i : grid0.Coords) (a1 : Memref sig .tc .vmem S8192x128 .i32) (h1 : a1.IsWhole)
    (a2 : Memref sig .tc .vmem S8192x128 .i32) (h2 : a2.IsWhole) (a3 : Memref sig .tc .vmem S8192x128 .f32) (h3 : a3.IsWhole)
    (a4 : Memref sig .tc .vmem S1x1 .f32) (h4 : a4.IsWhole) (hc0 : ¬cond0_0 i) (hc1 : ¬cond0_1 i)
    (x0 x1 : Vec F S8192x128 .i32) (x2 : Vec F S8192x128 .f32) (xo : Vec F S1x1 .f32) :
    out0_B_3 c i a1 h1 a2 h2 a3 h3 a4 h4 hc0 hc1 x0 x1 x2 xo = k0_pay2 x0 x1 x2 xo := by
  unfold out0_B_3
  rw [View.read_writes_eq_canon _ _ _ (cover0_B_3 c i a1 h1 a2 h2 a3 h3 a4 h4 hc0 hc1 x0 x1 x2 xo)]
  unfold kernelRun0_B
  dsimp only
  rw [View.canon_unit_zero hz]
  simp only [View.readAt_eq_ld, h1.read_unread, h2.read_unread, h3.read_unread, h4.read_unread,
    View.ld_unit_zero (S := S8192x128) hz, View.ld_unit_zero (S := S1x1) hz]

/-- The first point: the clearing store, then the accumulation over the cleared buffer read back. -/
theorem out_A (c : Dev nD) (i : grid0.Coords) (a1 : Memref sig .tc .vmem S8192x128 .i32) (h1 : a1.IsWhole)
    (a2 : Memref sig .tc .vmem S8192x128 .i32) (h2 : a2.IsWhole) (a3 : Memref sig .tc .vmem S8192x128 .f32) (h3 : a3.IsWhole)
    (a4 : Memref sig .tc .vmem S1x1 .f32) (h4 : a4.IsWhole) (hc0 : cond0_0 i) (hc1 : ¬cond0_1 i)
    (x0 x1 : Vec F S8192x128 .i32) (x2 : Vec F S8192x128 .f32) :
    out0_A_3 c i a1 h1 a2 h2 a3 h3 a4 h4 hc0 hc1 x0 x1 x2 = k0_pay2 x0 x1 x2 (k0_pay1 (F := F)) := by
  unfold out0_A_3
  rw [View.read_writes_eq_canon _ _ _ (cover0_A_3 c i a1 h1 a2 h2 a3 h3 a4 h4 hc0 hc1 x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S8192x128) hz]

/-- The last point: the accumulation over the buffer's contents `xo`, then the quotient of that, read back. -/
theorem out_C (c : Dev nD) (i : grid0.Coords) (a1 : Memref sig .tc .vmem S8192x128 .i32) (h1 : a1.IsWhole)
    (a2 : Memref sig .tc .vmem S8192x128 .i32) (h2 : a2.IsWhole) (a3 : Memref sig .tc .vmem S8192x128 .f32) (h3 : a3.IsWhole)
    (a4 : Memref sig .tc .vmem S1x1 .f32) (h4 : a4.IsWhole) (hc0 : ¬cond0_0 i) (hc1 : cond0_1 i)
    (x0 x1 : Vec F S8192x128 .i32) (x2 : Vec F S8192x128 .f32) (xo : Vec F S1x1 .f32) :
    out0_C_3 c i a1 h1 a2 h2 a3 h3 a4 h4 hc0 hc1 x0 x1 x2 xo = k0_pay3 (k0_pay2 x0 x1 x2 xo) := by
  unfold out0_C_3
  rw [View.read_writes_eq_canon _ _ _ (cover0_C_3 c i a1 h1 a2 h2 a3 h3 a4 h4 hc0 hc1 x0 x1 x2 xo)]
  unfold kernelRun0_C
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S8192x128) hz, View.ld_unit_zero (S := S1x1) hz]

end Cert.KernelIdeal.Pieces

end
-- ==== Proof.Payload.lean ====
/-
  The three stores' payloads over the extended reals, at an index of the one-entry buffer:
    the clearing store writes `0`;
    the accumulation writes the buffer's entry plus the total, over all 8192 x 128 indices of the point's blocks, of the
      summands `w * x` — the lane reduction runs over both axes of the block, so it is one sum over every index of the
      block, and the reshapes around it only rename indices;
    the last store writes the entry divided by the entry count.
-/
import proofs.«171369_j55611236548992_1_alg».proof.Proof.Gen.KernelIdeal.Skeleton
import proofs.«171369_j55611236548992_1_alg».proof.Proof.SumLaws
import Idealize.ShloMosaic.PureOps.Ideal.Laws
import Idealize.ShloMosaic.Lib.Pipeline.Value

noncomputable section

open scoped BigOperators
open Idealize.ShloMosaic Idealize.ShloMosaic.ValueIdx

namespace Cert.KernelIdeal.Payload

open Cert.KernelIdeal Cert.KernelIdeal.Gen Cert.DiscLoss

/-- The clearing store's payload is zero at its one index. -/
theorem pay1_apply (j : S1x1.Idx) : k0_pay1 (F := Ideal) j = 0 := Ideal.ofBits_zero_f32

/-- The reduction of a [1, 8192, 128] view of a block over its two long axes, at its one index, is the total of the
    block over all its indices. -/
theorem blockTotal (v : FVec Ideal S8192x128 .f32) (hφ : FKind.Formats FTy.f32)
    (hacc : (0x00000000#32 : BitVec 32) = FKind.add.neutral .f32 hφ) (j : S1.Idx) :
    multiReduction (F := Ideal) .add [1, 2] S1 (shapeCast S1x8192x128 v shapeCasts_S8192x128_S1x8192x128) 0x00000000#32
        reduces_S1x8192x128_S1 hφ hacc j
      = ∑ y : S8192x128.Idx, v y :=
  (Ideal.multiReduction_add_total _ _ reduces_S1x8192x128_S1 (fun b => by fin_cases b; rfl) hφ hacc j).trans
    (sum_shapeCast v _)

/-- The accumulation's last steps with the reduction's result `r` left abstract: the one entry of `r`, spread over the
    [1, 1] buffer, is added to the buffer's entry. -/
theorem tail_shape (acc : Vec Ideal S1x1 .f32) (r : FVec Ideal S1 .f32) (j : S1x1.Idx) :
    addf acc (broadcast S1x1 (extractAt ![0, 0, 0] (shapeCast S1x1x1 r shapeCasts_S1_S1x1x1) inpos_S1x1x1_p0_0_0)) j
      = acc j + r (Shape.reshapeEquiv shapeCasts_S1_S1x1x1 (fun a => ⟨![0, 0, 0] a, inpos_S1x1x1_p0_0_0 a⟩)) := rfl

/-- The accumulation's payload: the buffer's entry plus the total of the summands over the point's blocks. -/
theorem pay2_apply (x0 x1 : Vec Ideal S8192x128 .i32) (x2 : Vec Ideal S8192x128 .f32) (acc : Vec Ideal S1x1 .f32)
    (j : S1x1.Idx) :
    k0_pay2 x0 x1 x2 acc j = acc j + ∑ y : S8192x128.Idx, term x0 x1 x2 y := by
  unfold k0_pay2
  simp only [shapeCast_self]
  refine (tail_shape acc _ j).trans ?_
  refine congrArg (fun z => acc j + z) ?_
  refine (blockTotal _ _ _ _).trans ?_
  refine Finset.sum_congr rfl fun y _ => ?_
  simp only [term, mulf, select, cmpi, broadcast]

/-- The last store's payload: the entry divided by the entry count `2 ^ 25`. -/
theorem pay3_apply (v : Vec Ideal S1x1 .f32) (j : S1x1.Idx) :
    k0_pay3 v j = FloatOps.divf (v j) (FloatOps.ofBits .f32 0x4C000000#32) := by
  unfold k0_pay3
  simp only [shapeCast_self, divf, broadcast]

end Cert.KernelIdeal.Payload

end
-- ==== Proof.Cases.lean ====
/-
  What one grid point leaves in the accumulator, as a value over the extended reals: the first point leaves its blocks'
  total (zero plus it), a middle point adds its blocks' total to what was there, the last point adds its blocks' total
  and divides by the entry count.
-/
import proofs.«171369_j55611236548992_1_alg».proof.Proof.Pieces
import proofs.«171369_j55611236548992_1_alg».proof.Proof.Payload

noncomputable section

open scoped BigOperators
open Idealize.ShloMosaic Idealize.ShloMosaic.TcCoe Idealize.SL.Sem

namespace Cert.KernelIdeal.Cases

open Cert.KernelIdeal Cert.KernelIdeal.Gen Cert.DiscLoss

/-- The first point leaves the total of its blocks. -/
theorem first (c : Dev nD) (i : grid0.Coords) (a1 : Memref sig .tc .vmem S8192x128 .i32) (h1 : a1.IsWhole)
    (a2 : Memref sig .tc .vmem S8192x128 .i32) (h2 : a2.IsWhole) (a3 : Memref sig .tc .vmem S8192x128 .f32) (h3 : a3.IsWhole)
    (a4 : Memref sig .tc .vmem S1x1 .f32) (h4 : a4.IsWhole) (hc0 : cond0_0 i) (hc1 : ¬cond0_1 i)
    (x0 x1 : Vec Ideal S8192x128 .i32) (x2 : Vec Ideal S8192x128 .f32) :
    out0_A_3 c i a1 h1 a2 h2 a3 h3 a4 h4 hc0 hc1 x0 x1 x2 = fun _ => ∑ y : S8192x128.Idx, term x0 x1 x2 y := by
  rw [Pieces.out_A]
  funext j
  rw [Payload.pay2_apply, Payload.pay1_apply, zero_add]

/-- A middle point leaves what the buffer held plus the total of its blocks. -/
theorem middle (c : Dev nD) (i : grid0.Coords) (a1 : Memref sig .tc .vmem S8192x128 .i32) (h1 : a1.IsWhole)
    (a2 : Memref sig .tc .vmem S8192x128 .i32) (h2 : a2.IsWhole) (a3 : Memref sig .tc .vmem S8192x128 .f32) (h3 : a3.IsWhole)
    (a4 : Memref sig .tc .vmem S1x1 .f32) (h4 : a4.IsWhole) (hc0 : ¬cond0_0 i) (hc1 : ¬cond0_1 i)
    (x0 x1 : Vec Ideal S8192x128 .i32) (x2 : Vec Ideal S8192x128 .f32) (xo : Vec Ideal S1x1 .f32) :
    out0_B_3 c i a1 h1 a2 h2 a3 h3 a4 h4 hc0 hc1 x0 x1 x2 xo = fun j => xo j + ∑ y : S8192x128.Idx, term x0 x1 x2 y := by
  rw [Pieces.out_B]
  funext j
  rw [Payload.pay2_apply]

/-- The last point leaves what the buffer held plus the total of its blocks, divided by the entry count. -/
theorem last (c : Dev nD) (i : grid0.Coords) (a1 : Memref sig .tc .vmem S8192x128 .i32) (h1 : a1.IsWhole)
    (a2 : Memref sig .tc .vmem S8192x128 .i32) (h2 : a2.IsWhole) (a3 : Memref sig .tc .vmem S8192x128 .f32) (h3 : a3.IsWhole)
    (a4 : Memref sig .tc .vmem S1x1 .f32) (h4 : a4.IsWhole) (hc0 : ¬cond0_0 i) (hc1 : cond0_1 i)
    (x0 x1 : Vec Ideal S8192x128 .i32) (x2 : Vec Ideal S8192x128 .f32) (xo : Vec Ideal S1x1 .f32) :
    out0_C_3 c i a1 h1 a2 h2 a3 h3 a4 h4 hc0 hc1 x0 x1 x2 xo
      = fun j => FloatOps.divf (F := Ideal) (xo j + ∑ y : S8192x128.Idx, term x0 x1 x2 y) (FloatOps.ofBits (F := Ideal) .f32 0x4C000000#32) := by
  rw [Pieces.out_C]
  funext j
  rw [Payload.pay3_apply, Payload.pay2_apply]

end Cert.KernelIdeal.Cases

end
-- ==== Proof.Accum.lean ====
/-
  The accumulator after each grid point, by induction on the point: after point `n < 31` it holds the sum of the block
  totals of points `0 … n`; after point 31 it holds the sum of all 32 block totals divided by the entry count. Block
  totals are indexed by naturals here (zero past the grid) so that the running sum is a sum over a range.
-/
import proofs.«171369_j55611236548992_1_alg».proof.Proof.Cases

noncomputable section

open scoped BigOperators
open Idealize.ShloMosaic Idealize.ShloMosaic.TcCoe Idealize.SL.Sem

namespace Cert.KernelIdeal.Accum

open Cert.KernelIdeal Cert.KernelIdeal.Gen Cert.DiscLoss

variable (m : (ℓ : Loc nD τ sig) → Buf (Elt Ideal) ℓ)

/-- The total of the summands over the three input blocks of grid point `t`. -/
def blockSum (c : Dev nD) (t : Fin cfg0.N) : Ideal .f32 :=
  ∑ y : S8192x128.Idx, term (iblk m c 0 t : Vec Ideal S8192x128 .i32) (iblk m c 1 t : Vec Ideal S8192x128 .i32)
    (iblk m c 2 t : Vec Ideal S8192x128 .f32) y

/-- The same by the point's number, zero past the last point. -/
def blockSumN (c : Dev nD) (s : ℕ) : Ideal .f32 := if h : s < cfg0.N then blockSum m c ⟨s, h⟩ else 0

/-- Inside the grid it is the point's block total. -/
theorem blockSumN_of_lt (c : Dev nD) {s : ℕ} (h : s < cfg0.N) : blockSumN m c s = blockSum m c ⟨s, h⟩ := dif_pos h

/-- Before the last point the accumulator holds the running sum of the block totals so far. -/
theorem outsAt_lt (c : Dev nD) : ∀ (n : ℕ) (h : n < cfg0.N), n < 31 →
    outsAt0 m c n h = fun _ => ∑ s ∈ Finset.range (n + 1), blockSumN m c s
  | 0, h, _ => by
    refine (outsAt0_A m c ⟨0, h⟩ rfl (show ¬(0 % 32 = 31) by decide)).trans ?_
    refine (Cases.first c _ _ _ _ _ _ _ _ _ _ _ _ _ _).trans ?_
    funext j
    rw [Finset.sum_range_one, blockSumN_of_lt m c h]
    rfl
  | n + 1, h, hlt => by
    have hN : cfg0.N = 32 := N_0
    refine (outsAt0_B m c ⟨n + 1, h⟩ (by dsimp only; omega) (by dsimp only; omega)).trans ?_
    refine (Cases.middle c _ _ _ _ _ _ _ _ _ _ _ _ _ _ _).trans ?_
    funext j
    show outsAt0 m c n _ j + blockSum m c ⟨n + 1, h⟩ = _
    rw [outsAt_lt c n _ (by omega), Finset.sum_range_succ _ (n + 1), blockSumN_of_lt m c h]

/-- After the last point it holds the sum of all 32 block totals divided by the entry count. -/
theorem outsAt_last (c : Dev nD) (h : 31 < cfg0.N) :
    outsAt0 m c 31 h
      = fun _ => FloatOps.divf (F := Ideal) (∑ s ∈ Finset.range 32, blockSumN m c s) (FloatOps.ofBits (F := Ideal) .f32 0x4C000000#32) := by
  refine (outsAt0_C m c ⟨31, h⟩ (show ¬(31 % 32 = 0) by decide) rfl).trans ?_
  refine (Cases.last c _ _ _ _ _ _ _ _ _ _ _ _ _ _ _).trans ?_
  funext j
  show FloatOps.divf (F := Ideal) (outsAt0 m c 30 _ j + blockSum m c ⟨31, h⟩) _ = _
  rw [outsAt_lt m c 30 _ (by decide), Finset.sum_range_succ _ 31, blockSumN_of_lt m c h]

/-- The sum over the range of the first 32 naturals is the sum over the grid's points. -/
theorem total_eq (c : Dev nD) : ∑ s ∈ Finset.range 32, blockSumN m c s = ∑ t : Fin cfg0.N, blockSum m c t := by
  rw [show Finset.range 32 = Finset.range cfg0.N from congrArg Finset.range N_0.symm]
  exact sum_range_dite cfg0.N (blockSum m c)

end Cert.KernelIdeal.Accum

end
-- ==== Proof.KernelValue.lean ====
/-
  The kernel's result over the extended reals. Block `t` of an input window is rows `t * 8192 … t * 8192 + 8191` of the
  [262144, 128] array the region finds, and that array is the flat argument reshaped; so a block total is the total of the
  summands over a row block of the reshaped arguments, the 32 block totals add up to the total over the whole reshaped
  arrays, and that is the total over the flat arguments (a reshape renames indices). Only the last grid point writes
  the [1, 1] result array back, its block is the whole array, and the final reshape to a scalar keeps the one entry: the
  program ends with `loss` of its arguments in its result and its arguments unchanged.
-/
import proofs.«171369_j55611236548992_1_alg».proof.Proof.Accum
import proofs.«171369_j55611236548992_1_alg».proof.Proof.Loss
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Cert.DiscLoss Cert.KernelIdeal.Accum

variable (m : (ℓ : Loc nD τ sig) → Buf (Elt Ideal) ℓ) (ρ : Dev nD → PrngReg)

/-- Every input window's block index at point `t` is `(t, 0)`: decided over the 32 points. -/
theorem idx_in : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0) :=
  (by decide +kernel : ∀ t : Fin grid0.N,
    (win0_0.index t 0 = t.val ∧ win0_0.index t 1 = 0) ∧ (win0_1.index t 0 = t.val ∧ win0_1.index t 1 = 0)
      ∧ (win0_2.index t 0 = t.val ∧ win0_2.index t 1 = 0))

/-- The output window's block index is `(0, 0)` at every point. -/
theorem idx_out : ∀ t : Fin cfg0.N, win0_3.index t 0 = 0 ∧ win0_3.index t 1 = 0 :=
  (by decide +kernel : ∀ t : Fin grid0.N, win0_3.index t 0 = 0 ∧ win0_3.index t 1 = 0)

/-- Entry `y` of the first label array's block at point `t` is entry `(t * 8192 + y₀, y₁)` of the array the region finds. -/
theorem iblk0_apply (c : Dev nD) (t : Fin cfg0.N) (y : S8192x128.Idx) :
    (iblk m c 0 t : Vec Ideal S8192x128 .i32) y = V m c main_v0 (blockIdx (Fin.cast N_0 t) y) := by
  unfold iblk
  rw [View.read_apply]
  show V m c main_v0 _ = V m c main_v0 _
  refine congrArg (V m c main_v0) ?_
  funext a
  apply Fin.ext
  match a with
  | ⟨0, _⟩ => show win0_0.index t 0 * 8192 + 1 * (y 0).val = t.val * 8192 + (y 0).val; rw [(idx_in t).1.1]; omega
  | ⟨1, _⟩ => show win0_0.index t 1 * 128 + 1 * (y 1).val = (y 1).val; rw [(idx_in t).1.2]; omega

/-- The same for the second label array. -/
theorem iblk1_apply (c : Dev nD) (t : Fin cfg0.N) (y : S8192x128.Idx) :
    (iblk m c 1 t : Vec Ideal S8192x128 .i32) y = V m c main_v1 (blockIdx (Fin.cast N_0 t) y) := by
  unfold iblk
  rw [View.read_apply]
  show V m c main_v1 _ = V m c main_v1 _
  refine congrArg (V m c main_v1) ?_
  funext a
  apply Fin.ext
  match a with
  | ⟨0, _⟩ => show win0_1.index t 0 * 8192 + 1 * (y 0).val = t.val * 8192 + (y 0).val; rw [(idx_in t).2.1.1]; omega
  | ⟨1, _⟩ => show win0_1.index t 1 * 128 + 1 * (y 1).val = (y 1).val; rw [(idx_in t).2.1.2]; omega

/-- The same for the float entries. -/
theorem iblk2_apply (c : Dev nD) (t : Fin cfg0.N) (y : S8192x128.Idx) :
    (iblk m c 2 t : Vec Ideal S8192x128 .f32) y = V m c main_v2 (blockIdx (Fin.cast N_0 t) y) := by
  unfold iblk
  rw [View.read_apply]
  show V m c main_v2 _ = V m c main_v2 _
  refine congrArg (V m c main_v2) ?_
  funext a
  apply Fin.ext
  match a with
  | ⟨0, _⟩ => show win0_2.index t 0 * 8192 + 1 * (y 0).val = t.val * 8192 + (y 0).val; rw [(idx_in t).2.2.1]; omega
  | ⟨1, _⟩ => show win0_2.index t 1 * 128 + 1 * (y 1).val = (y 1).val; rw [(idx_in t).2.2.2]; omega

/-- The array the region finds for the first labels is the flat argument reshaped to [262144, 128]. -/
theorem V_v0 (c : Dev nD) : (V m c main_v0 : S262144x128.Idx → BitVec 32)
    = shapeCast S262144x128 (m ((c : Thread nD τ).loc main_arg0)) shapeCasts_S33554432_S262144x128 := by
  show StableHlo.after hostOps0 (fun b => m (c, b)) (Proc.devRef .tc main_v0) = _
  after_results
  rfl

/-- The same for the second labels. -/
theorem V_v1 (c : Dev nD) : (V m c main_v1 : S262144x128.Idx → BitVec 32)
    = shapeCast S262144x128 (m ((c : Thread nD τ).loc main_arg1)) shapeCasts_S33554432_S262144x128 := by
  show StableHlo.after hostOps0 (fun b => m (c, b)) (Proc.devRef .tc main_v1) = _
  after_results
  rfl

/-- The same for the float entries. -/
theorem V_v2 (c : Dev nD) : (V m c main_v2 : S262144x128.Idx → Ideal .f32)
    = shapeCast S262144x128 (m ((c : Thread nD τ).loc main_arg2)) shapeCasts_S33554432_S262144x128 := by
  show StableHlo.after hostOps0 (fun b => m (c, b)) (Proc.devRef .tc main_v2) = _
  after_results
  rfl

/-- A point's block total is the total over row block `t` of the arrays the region finds. -/
theorem blockSum_eq (c : Dev nD) (t : Fin cfg0.N) :
    blockSum m c t = arrBlockSum (V m c main_v0 : S262144x128.Idx → BitVec 32)
      (V m c main_v1 : S262144x128.Idx → BitVec 32) (V m c main_v2 : S262144x128.Idx → Ideal .f32) (Fin.cast N_0 t) :=
  Finset.sum_congr rfl fun y _ => term_congr (iblk0_apply m c t y) (iblk1_apply m c t y) (iblk2_apply m c t y)

/-- The 32 block totals add up to the total of the summands over the flat arguments. -/
theorem kernel_total (c : Dev nD) :
    ∑ t : Fin cfg0.N, blockSum m c t
      = ∑ k : S33554432.Idx, term (m ((c : Thread nD τ).loc main_arg0)) (m ((c : Thread nD τ).loc main_arg1))
          (m ((c : Thread nD τ).loc main_arg2)) k := by
  rw [Finset.sum_congr rfl fun t _ => blockSum_eq m c t, sum_fin_cast N_0, sum_arrBlockSum, V_v0, V_v1, V_v2]
  refine Eq.trans (Finset.sum_congr rfl fun z _ => ?_) (Equiv.sum_comp (Shape.reshapeEquiv shapeCasts_S33554432_S262144x128)
    (term (m ((c : Thread nD τ).loc main_arg0)) (m ((c : Thread nD τ).loc main_arg1)) (m ((c : Thread nD τ).loc main_arg2))))
  exact term_congr rfl rfl rfl

/-- The last grid point. -/
abbrev tLast : Fin cfg0.N := ⟨31, by rw [show cfg0.N = 32 from N_0]; decide⟩

/-- The [1, 1] result array's final contents: `loss` of the arguments at its one index. -/
abbrev result (c : Dev nD) : Buf (Elt Ideal) ((c : Thread nD τ).loc main_v3) :=
  fun _ => loss (m ((c : Thread nD τ).loc main_arg0)) (m ((c : Thread nD τ).loc main_arg1)) (m ((c : Thread nD τ).loc main_arg2))

/-- After the last point the accumulator holds `loss` of the arguments. -/
theorem last_eq (c : Dev nD) (h : 31 < cfg0.N) :
    outsAt0 m c 31 h = fun _ => loss (m ((c : Thread nD τ).loc main_arg0)) (m ((c : Thread nD τ).loc main_arg1))
      (m ((c : Thread nD τ).loc main_arg2)) := by
  rw [outsAt_last, total_eq, kernel_total]
  simp only [loss]

/-- The one write-back, at the last point, writes the accumulator: its block is the whole [1, 1] array. -/
theorem flushed_eq (c : Dev nD) (t : Fin cfg0.N) (hf : (cfg0.win 3).flush t = true) :
    (dats m 0 c).flushed 3 t = ((cfg0.win 3).blk t).view.read (Elt Ideal) (result m c) := by
  have hN : cfg0.N = 32 := N_0
  have h31 : t.val = 31 := by have := (flush0_3 t).mp hf; have := t.isLt; omega
  obtain ⟨tv, ht⟩ := t
  obtain rfl : tv = 31 := h31
  show (cfg0.win 3).cut (grid0.coords ⟨31, ht⟩) ((dats m 0 c).after 3 ⟨31, ht⟩) = _
  rw [after0_3, last_eq]
  have hz' : (fun a => win0_3.index ⟨31, ht⟩ a * main_v3.ty.shape.size a) = fun _ => 0 := funext fun a => by
    match a with
    | ⟨0, _⟩ => show win0_3.index ⟨31, ht⟩ 0 * _ = 0; rw [(idx_out _).1]; exact Nat.zero_mul _
    | ⟨1, _⟩ => show win0_3.index ⟨31, ht⟩ 1 * _ = 0; rw [(idx_out _).2]; exact Nat.zero_mul _
  exact (Memref.read_access_unit_zero (Elt Ideal) main_v3 hz' (fun a => by rw [congrFun hz' a]; simp) (result m c)).symm

/-- So the result array ends holding it: the last point's block covers the array's one index. -/
theorem final3 (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v3).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [(idx_out tLast).1, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [(idx_out tLast).2, show win0_3.xsize (grid0.coords tLast) 1 = 1 from by decide +kernel]; omega⟩

/-- The final reshape of the [1, 1] array to a scalar keeps the one entry. -/
theorem tail_v4 (c : Dev nD) :
    Pipeline.afterTail₀ cfgs (dats m) 0 (V0 m) [hostOps1] c main_v4
      = fun _ => loss (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v3)
      = result m c := (Pipeline.withArrays_arr spec0 launch0.win.arr_inj c _ _ 3).trans (final3 m c)
  funext i
  show shapeCast S_ (Pipeline.withArrays (cfgs 0).spec c (V0 m c) (fun w => (dats m 0 c).arrAt w (cfgs 0).N)
    (Proc.tc.devRef main_v3)) shapeCasts_S1x1_S_ i = _
  rw [e]
  rfl

/-- Every weakly fair execution terminates with the scalar result at `loss` of the arguments and the arguments unchanged. -/
theorem run : θ_run defs (onTc (τ := τ) (main (F := Ideal))) ⟨m, fun _ => 0, ρ⟩ fun r => ∀ c : Dev nD,
      r.2.mem ((c.tc : Thread nD τ).loc main_v4)
        = (fun _ => loss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.lean ====
/- The loss `mean (w * x)`, `w = 1` where the two label arrays agree and `-1` where they differ, over 33554432 entries.
   The reference takes the total of `w k * x k` over all entries and divides it by `2 ^ 25`. The kernel views the
   entries as a [262144, 128] array and walks its 32 blocks of 8192 rows: the first point clears a one-entry
   accumulator, every point adds its block's total to it, the last point divides it by `2 ^ 25`, and only that last value
   is written out. On the extended reals addition is commutative and associative, infinities included, so the 32 block
   totals added one after the other are the total over all entries (Proof/SumLaws.lean), and the two quotients are one
   extended real; no entry need be finite for this. The pieces:
     Proof/SumLaws.lean, Proof/Loss.lean   the summand, the re-indexing of the total by row blocks, the closed form `loss`;
     Proof/Pieces.lean, Proof/Payload.lean, Proof/Cases.lean   what one point leaves in the accumulator, case by case;
     Proof/Accum.lean        the accumulator after each point, by induction on the point;
     Proof/KernelValue.lean  the result array after the last write-back, the final reshape to a scalar, the run;
     Proof/RefSide.lean      the reference's operations read at an index, chained to the same closed form.
   The idealization rewrote nothing, so its conjunct is `True`. -/
import proofs.«171369_j55611236548992_1_alg».proof.Defs
import proofs.«171369_j55611236548992_1_alg».proof.Proof.Gen.Kernel
import proofs.«171369_j55611236548992_1_alg».proof.Proof.Gen.Kernel.Skeleton
import proofs.«171369_j55611236548992_1_alg».proof.Proof.Gen.Kernel.Launch
import proofs.«171369_j55611236548992_1_alg».proof.Proof.Gen.Kernel.Points
import proofs.«171369_j55611236548992_1_alg».proof.Proof.Gen.Kernel.Frame
import proofs.«171369_j55611236548992_1_alg».proof.Proof.Gen.KernelIdeal
import proofs.«171369_j55611236548992_1_alg».proof.Proof.Gen.KernelIdeal.Skeleton
import proofs.«171369_j55611236548992_1_alg».proof.Proof.Gen.KernelIdeal.Launch
import proofs.«171369_j55611236548992_1_alg».proof.Proof.Gen.KernelIdeal.Points
import proofs.«171369_j55611236548992_1_alg».proof.Proof.Gen.KernelIdeal.Frame
import proofs.«171369_j55611236548992_1_alg».proof.Proof.Gen.ReferenceIdeal
import proofs.«171369_j55611236548992_1_alg».proof.Proof.Gen.Pre_finite_inputs
import proofs.«171369_j55611236548992_1_alg».proof.Proof.RefSide
import proofs.«171369_j55611236548992_1_alg».proof.Proof.KernelValue
import Idealize.ShloMosaic.Adequacy
import Idealize.ShloMosaic.Init

noncomputable section

namespace Cert.Proof

open Idealize.ShloMosaic Idealize.ShloMosaic.TcCoe Idealize.SL.Sem Cert.DiscLoss

/-- The word-level kernel terminates without a fault and leaves its three arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- And the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten for the reading over the extended reals. -/
theorem preserves : Cert.preserves_Kernel_KernelIdeal := trivial

/-- From memories that agree on the three arguments both programs end with the scalar `loss` of those arguments:
    the kernel by `KValue.run`, the reference by its run read back operation by operation (`v4_eq_loss`). -/
theorem algebraic : Cert.algebraic_KernelIdeal_ReferenceIdeal := by
  intro m ρ m' ρ' _ hagree
  refine ⟨fun c => fun _ => loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.v4_eq_loss, (hagree c).1, (hagree c).2.1,
    (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
